-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S5000x128 : Shape := ⟨2, ![5000, 128]⟩
abbrev S1x128 : Shape := ⟨2, ![1, 128]⟩
abbrev S1x50000x128 : Shape := ⟨3, ![1, 50000, 128]⟩

abbrev nBuf : Space → Nat
  | .hbm => 64
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S128x128, .f32⟩
  | .hbm, ⟨29, _⟩ => ⟨S128x128, .f32⟩
  | .hbm, ⟨30, _⟩ => ⟨S50000x128, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x128, .f32⟩
  | .hbm, ⟨40, _⟩ => ⟨S_, .f32⟩
  | .hbm, ⟨41, _⟩ => ⟨S50000x128, .f32⟩
  | .hbm, ⟨42, _⟩ => ⟨S600000x1, .i32⟩
  | .hbm, ⟨43, _⟩ => ⟨S50000x128, .f32⟩
  | .hbm, ⟨44, _⟩ => ⟨S128x128, .f32⟩
  | .hbm, ⟨45, _⟩ => ⟨S128x128, .f32⟩
  | .hbm, ⟨46, _⟩ => ⟨S50000x128, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x128, .f32⟩
  | .hbm, ⟨56, _⟩ => ⟨S_, .f32⟩
  | .hbm, ⟨57, _⟩ => ⟨S50000x128, .f32⟩
  | .hbm, ⟨58, _⟩ => ⟨S600000x1, .i32⟩
  | .hbm, ⟨59, _⟩ => ⟨S50000x128, .f32⟩
  | .hbm, ⟨60, _⟩ => ⟨S128x128, .f32⟩
  | .hbm, ⟨61, _⟩ => ⟨S128x128, .f32⟩
  | .hbm, ⟨62, _⟩ => ⟨S50000x128, .f32⟩
  | .hbm, ⟨63, _⟩ => ⟨S1x50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S50000x128_S1x50000x128 : S50000x128.ShapeCasts S1x50000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S1x50000x128 : Shape := ⟨3, ![1, 50000, 128]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S128x128, .f32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S128x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .f32⟩
  | .hbm, ⟨48, _⟩ => ⟨S_, .f32⟩
  | .hbm, ⟨49, _⟩ => ⟨S50000x128, .f32⟩
  | .hbm, ⟨50, _⟩ => ⟨S600000x1, .i32⟩
  | .hbm, ⟨51, _⟩ => ⟨S50000x128, .f32⟩
  | .hbm, ⟨52, _⟩ => ⟨S128x128, .f32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S128x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S600000x128, .f32⟩
  | .hbm, ⟨72, _⟩ => ⟨S_, .f32⟩
  | .hbm, ⟨73, _⟩ => ⟨S50000x128, .f32⟩
  | .hbm, ⟨74, _⟩ => ⟨S600000x1, .i32⟩
  | .hbm, ⟨75, _⟩ => ⟨S50000x128, .f32⟩
  | .hbm, ⟨76, _⟩ => ⟨S128x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S128x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S1x50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_cst : Ref sig .tc := ⟨.hbm, 36, rfl⟩
abbrev main_call0_v0 : Ref sig .tc := ⟨.hbm, 37, rfl⟩
abbrev main_v22 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_cst : Ref sig .tc := ⟨.hbm, 60, rfl⟩
abbrev main_call1_v0 : Ref sig .tc := ⟨.hbm, 61, rfl⟩
abbrev main_v41 : Ref sig .tc := ⟨.hbm, 62, rfl⟩
abbrev main_c_4 : Ref sig .tc := ⟨.hbm, 63, rfl⟩
abbrev main_v42 : Ref sig .tc := ⟨.hbm, 64, rfl⟩
abbrev main_v43 : Ref sig .tc := ⟨.hbm, 65, rfl⟩
abbrev main_c_5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call2_cst : Ref sig .tc := ⟨.hbm, 84, rfl⟩
abbrev main_call2_v0 : Ref sig .tc := ⟨.hbm, 85, rfl⟩
abbrev main_v60 : Ref sig .tc := ⟨.hbm, 86, rfl⟩
abbrev main_v61 : Ref sig .tc := ⟨.hbm, 87, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S1x50000x128 : S50000x128.ShapeCasts S1x50000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's whole run, with every buffer's final contents kept.

  @main is seven segments: a stretch of host operations, a kernel region, a stretch, a region, a stretch, a region, and
  a last stretch (the reshape of the result). The contents of the TensorCore's buffers at each segment boundary are a
  fold from the launch memory: a host stretch applies its operations, a region replaces its arrays by what its
  write-backs leave. Every weakly fair execution terminates, nothing faulting, and in its final state EVERY buffer
  that is not a kernel's scratch holds the last boundary's contents: the value of each result can then be read off the fold.
-/
import proofs.«142759_j84980222918908_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final state every buffer outside the
    kernels' scratch holds the contents the fold through the seven segments gives it (`Gen.W7`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The result buffer is not a kernel's scratch, so the run leaves it at the fold's contents. -/
theorem result_at (r : PUnit × MemSt nD τ sig (Elt F))
    (h : ∀ c : Dev nD, ∀ b ∈ Pipeline.ucRefs τ sig, r.2.mem (((c : Thread nD τ)).1, b) = W7 m ρ c b) (c : Dev nD) :
    r.2.mem ((c.tc : Thread nD τ).loc main_v43) = W7 m ρ c (Proc.devRef .tc main_v43) :=
  h c _ (mem_uc main_v43 (by decide))

end Cert.KernelIdeal.Whole

end
-- ==== Proof.LayerSpec.lean ====
/-
  One GraphConv layer, entry by entry, on the extended reals.

  For a node `r` and an output feature `e`, with `a` the row of summed neighbour features of `r`, `h` the row of the
  node's own features, `wr` and `wo` the columns `e` of the two (already transposed) weight matrices and `b` the bias
  of feature `e`, the layer's entry is  max ((∑ₖ aₖ·wrₖ + ∑ₖ hₖ·woₖ) + b, 0).
  The reference adds the bias to the first product before the second product is added; on the extended reals addition
  is commutative and associative with no finiteness needed, so the two groupings agree (`denseAt_bias_first`).
-/
import Idealize.ShloMosaic.PureOps.Ideal
import Idealize.ShloMosaic.Lib.ValueIdx

noncomputable section

open scoped BigOperators

namespace Cert.Layer

open Idealize.ShloMosaic Idealize.ShloMosaic.ValueIdx

/-- The node-feature arrays, the square weight matrices and the bias vectors. -/
abbrev SN : Shape := ⟨2, ![50000, 128]⟩
abbrev SW : Shape := ⟨2, ![128, 128]⟩
abbrev SB : Shape := ⟨1, ![128]⟩

/-- One entry of a layer: the two inner products added, then the bias, then the maximum with zero (the zero kept as
    the float pattern both programs print). -/
def denseAt (a h wr wo : Fin 128 → EReal) (b : EReal) : EReal :=
  max ((∑ k : Fin 128, a k * wr k + ∑ k : Fin 128, h k * wo k) + b) (Ideal.ofBits .f32 0x00000000#32)

/-- The same entry with the bias added to the first inner product before the second is added. -/
theorem denseAt_bias_first (a h wr wo : Fin 128 → EReal) (b : EReal) :
    max ((∑ k : Fin 128, a k * wr k + b) + ∑ k : Fin 128, h k * wo k) (Ideal.ofBits .f32 0x00000000#32)
      = denseAt a h wr wo b := by
  unfold denseAt
  rw [add_right_comm]

/-- A whole layer: entry (r, e) from row r of the aggregated features and of the node features, column e of the two
    transposed weight matrices, and bias e. -/
def layer (agg h : SN.Idx → EReal) (wrT woT : SW.Idx → EReal) (b : SB.Idx → EReal) : SN.Idx → EReal :=
  fun i => denseAt (fun k => agg (ix2 (i 0) k)) (fun k => h (ix2 (i 0) k))
    (fun k => wrT (ix2 k (i 1))) (fun k => woT (ix2 k (i 1))) (b (ix1 (i 1)))

theorem layer_apply (agg h : SN.Idx → EReal) (wrT woT : SW.Idx → EReal) (b : SB.Idx → EReal) (r : Fin 50000) (e : Fin 128) :
    layer agg h wrT woT b (ix2 r e) = denseAt (fun k => agg (ix2 r k)) (fun k => h (ix2 r k))
      (fun k => wrT (ix2 k e)) (fun k => woT (ix2 k e)) (b (ix1 e)) := rfl

end Cert.Layer

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.Block.lean ====
/-
  What the kernel body stores, at one entry.

  The body loads a 5000-row block of the aggregated features and of the node features, the two 128 × 128 weight
  matrices (already transposed by the host) and the bias, and stores
      max ((agg · Wr + h · Wo) + bias row, 0)
  over the block. Changes of float format are the identity on the extended reals, a matrix product into the zero
  accumulator is the plain sum over the contracted axis, and the bias vector viewed as one row and repeated over the
  rows reads the bias of the column. So entry (p, q) of the stored block is the layer's entry built from row p of the
  two blocks and column q of the two matrices.
-/
import proofs.«142759_j84980222918908_1_alg».proof.Proof.Gen.KernelIdeal
import proofs.«142759_j84980222918908_1_alg».proof.Proof.Gen.KernelIdeal.Skeleton
import proofs.«142759_j84980222918908_1_alg».proof.Proof.LayerSpec
import proofs.«142759_j84980222918908_1_alg».proof.Proof.LibPlainMatmul
import Idealize.ShloMosaic.Lib.ValueLayout
import Idealize.ShloMosaic.Lib.ValueIdx
import Idealize.ShloMosaic.Lib.Pipeline.Value

noncomputable section

open scoped BigOperators

namespace Cert.KernelIdeal.Block

open Cert.KernelIdeal Cert.KernelIdeal.Gen Idealize.ShloMosaic Idealize.ShloMosaic.ValueIdx Cert.Layer

/-- A block times a weight matrix into the zero accumulator, at (p, q): the sum over k of block (p, k) · matrix (k, q). -/
theorem blockProduct {φ ψ : FTy} (A : FVec Ideal S5000x128 φ) (B : FVec Ideal S128x128 ψ) (p : Fin 5000) (q : Fin 128) :
    matmul dot_S5000x128_S128x128_S5000x128_1_0_0_1_n_n none A B (constant S5000x128 .f32 0x00000000#32) (ix2 p q)
      = ∑ k : Fin 128, A (ix2 p k) * B (ix2 k q) :=
  PlainMatmul.plainMatmul_apply (M := 5000) (K := 128) (N := 128) none A B p q

/-- The bias vector viewed as one row and repeated over the block's rows reads, at (p, q), the bias of column q. -/
theorem biasRow (v : Vec Ideal S128 .f32) (p : Fin 5000) (q : Fin 128) :
    broadcastTo S5000x128 (shapeCast S1x128 v shapeCasts_S128_S1x128) broadcasts_S1x128_S5000x128 (ix2 p q) = v (ix1 q) :=
  (broadcastTo_1b_ab_apply _ broadcasts_S1x128_S5000x128 p q).trans (shapeCast_a_1a_apply v shapeCasts_S128_S1x128 0 q)

/-- The body's arithmetic, written out, at entry (p, q): the layer's entry from row p of the two loaded blocks, column q
    of the two loaded matrices and bias q. -/
theorem body_apply (x0 x1 : Vec Ideal S5000x128 .f32) (x2 x3 : Vec Ideal S128x128 .f32) (x4 : Vec Ideal S128 .f32)
    (p : Fin 5000) (q : Fin 128) :
    max ((matmul (F := Ideal) dot_S5000x128_S128x128_S5000x128_1_0_0_1_n_n none
          (truncf (F := Ideal) .bf16 (shapeCast S5000x128 x0 shapeCasts_S5000x128_S5000x128) bitsLt_bf16_f32)
          (truncf (F := Ideal) .bf16 (shapeCast S128x128 x2 shapeCasts_S128x128_S128x128) bitsLt_bf16_f32)
          (constant (F := Ideal) S5000x128 .f32 0x00000000#32) (ix2 p q)
        + matmul (F := Ideal) dot_S5000x128_S128x128_S5000x128_1_0_0_1_n_n none
          (truncf (F := Ideal) .bf16 x1 bitsLt_bf16_f32)
          (truncf (F := Ideal) .bf16 (shapeCast S128x128 x3 shapeCasts_S128x128_S128x128) bitsLt_bf16_f32)
          (constant (F := Ideal) S5000x128 .f32 0x00000000#32) (ix2 p q))
      + broadcastTo S5000x128 (shapeCast S1x128 x4 shapeCasts_S128_S1x128) broadcasts_S1x128_S5000x128 (ix2 p q))
      (Ideal.ofBits .f32 0x00000000#32)
      = denseAt (fun k => x0 (ix2 p k)) (fun k => x1 (ix2 p k)) (fun k => x2 (ix2 k q)) (fun k => x3 (ix2 k q)) (x4 (ix1 q)) := by
  rw [blockProduct, blockProduct, biasRow, shapeCast_self, shapeCast_self, shapeCast_self]
  rfl

/-- The same arithmetic as the second and third kernels print it: the node-feature block also passes through an
    identity reshape. -/
theorem body_apply' (x0 x1 : Vec Ideal S5000x128 .f32) (x2 x3 : Vec Ideal S128x128 .f32) (x4 : Vec Ideal S128 .f32)
    (p : Fin 5000) (q : Fin 128) :
    max ((matmul (F := Ideal) dot_S5000x128_S128x128_S5000x128_1_0_0_1_n_n none
          (truncf (F := Ideal) .bf16 (shapeCast S5000x128 x0 shapeCasts_S5000x128_S5000x128) bitsLt_bf16_f32)
          (truncf (F := Ideal) .bf16 (shapeCast S128x128 x2 shapeCasts_S128x128_S128x128) bitsLt_bf16_f32)
          (constant (F := Ideal) S5000x128 .f32 0x00000000#32) (ix2 p q)
        + matmul (F := Ideal) dot_S5000x128_S128x128_S5000x128_1_0_0_1_n_n none
          (truncf (F := Ideal) .bf16 (shapeCast S5000x128 x1 shapeCasts_S5000x128_S5000x128) bitsLt_bf16_f32)
          (truncf (F := Ideal) .bf16 (shapeCast S128x128 x3 shapeCasts_S128x128_S128x128) bitsLt_bf16_f32)
          (constant (F := Ideal) S5000x128 .f32 0x00000000#32) (ix2 p q))
      + broadcastTo S5000x128 (shapeCast S1x128 x4 shapeCasts_S128_S1x128) broadcasts_S1x128_S5000x128 (ix2 p q))
      (Ideal.ofBits .f32 0x00000000#32)
      = denseAt (fun k => x0 (ix2 p k)) (fun k => x1 (ix2 p k)) (fun k => x2 (ix2 k q)) (fun k => x3 (ix2 k q)) (x4 (ix1 q)) := by
  rw [blockProduct, blockProduct, biasRow, shapeCast_self, shapeCast_self, shapeCast_self, shapeCast_self]
  rfl

/-- Entry (p, q) of what the first kernel's body stores … -/
theorem pay0_apply (x0 x1 : Vec Ideal S5000x128 .f32) (x2 x3 : Vec Ideal S128x128 .f32) (x4 : Vec Ideal S128 .f32)
    (p : Fin 5000) (q : Fin 128) :
    k0_pay1 (F := Ideal) x0 x1 x2 x3 x4 (ix2 p q)
      = denseAt (fun k => x0 (ix2 p k)) (fun k => x1 (ix2 p k)) (fun k => x2 (ix2 k q)) (fun k => x3 (ix2 k q)) (x4 (ix1 q)) :=
  body_apply x0 x1 x2 x3 x4 p q

/-- … the second's … -/
theorem pay1_apply (x0 x1 : Vec Ideal S5000x128 .f32) (x2 x3 : Vec Ideal S128x128 .f32) (x4 : Vec Ideal S128 .f32)
    (p : Fin 5000) (q : Fin 128) :
    k1_pay1 (F := Ideal) x0 x1 x2 x3 x4 (ix2 p q)
      = denseAt (fun k => x0 (ix2 p k)) (fun k => x1 (ix2 p k)) (fun k => x2 (ix2 k q)) (fun k => x3 (ix2 k q)) (x4 (ix1 q)) :=
  body_apply' x0 x1 x2 x3 x4 p q

/-- … and the third's. -/
theorem pay2_apply (x0 x1 : Vec Ideal S5000x128 .f32) (x2 x3 : Vec Ideal S128x128 .f32) (x4 : Vec Ideal S128 .f32)
    (p : Fin 5000) (q : Fin 128) :
    k2_pay1 (F := Ideal) x0 x1 x2 x3 x4 (ix2 p q)
      = denseAt (fun k => x0 (ix2 p k)) (fun k => x1 (ix2 p k)) (fun k => x2 (ix2 k q)) (fun k => x3 (ix2 k q)) (x4 (ix1 q)) :=
  body_apply' x0 x1 x2 x3 x4 p q

end Cert.KernelIdeal.Block

end
-- ==== Proof.Region.lean ====
/-
  Each kernel region's output array, as one function of the arrays the region finds.

  A region runs the dense body at ten grid points. Point `t` fetches rows 5000·t … 5000·t + 4999 of the aggregated
  features and of the node features, the two whole weight matrices and the whole bias, and writes back rows
  5000·t … 5000·t + 4999 of the output. Entry (p, q) of the written block depends on row p of the two input blocks —
  rows 5000·t + p of the arrays — so the written block is block `t` of the whole-array layer; the ten blocks are
  disjoint and cover the 50000 rows, so after the region the output array IS the layer of the region's input arrays,
  whatever the buffers held at the region's entry.
-/
import proofs.«142759_j84980222918908_1_alg».proof.Proof.Gen.KernelIdeal.Frame
import proofs.«142759_j84980222918908_1_alg».proof.Proof.Block
import Idealize.ShloMosaic.Lib.Pipeline.Value

set_option maxRecDepth 16384

noncomputable section

namespace Cert.KernelIdeal.Region

open Cert.KernelIdeal Cert.KernelIdeal.Gen Cert.Layer
open Idealize.ShloMosaic Idealize.ShloMosaic.TcCoe Idealize.ShloMosaic.ValueIdx Idealize.SL.Sem
open Idealize.ShloMosaic.Pipeline (Dat Cfg Window)

theorem origin2 : (![0, 0] : Fin 2 → Nat) = fun _ => 0 := funext fun a => by fin_cases a <;> rfl
theorem origin1 : (![0] : Fin 1 → Nat) = fun _ => 0 := funext fun a => by fin_cases a <;> rfl

-- the buffers' contents when a region is entered: every statement below holds for any
variable (V : (c : Dev nD) → (b : Ref sig .tc) → Buf (Elt Ideal) ((c : Thread nD τ).loc b))

/-! ## Region 0 -/

/-- The printed index maps of region 0, decided over its ten grid points: the two row-blocked inputs move with the output
    block, the matrices and the bias stay at block 0, and the output's block row is the point's number. -/
theorem blockRows0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

set_option maxHeartbeats 1600000 in
/-- What grid point `t` writes back is block `t` of the layer of the arrays as the region finds them. -/
theorem flushed0 (c : Dev nD) (t : Fin cfg0.N) :
    (dat0 V c).flushed 5 t = ((cfg0.win 5).blk t).view.read (Elt Ideal)
      (layer (V c main_v13) (V c main_arg0) (V c main_v14) (V c main_v15) (V c main_arg3)) := by
  show (cfg0.win 5).cut (grid0.coords t) ((dat0 V c).after 5 t) = _
  rw [after0_5]
  unfold out0_5
  rw [View.canon_unit_zero origin2]
  simp only [View.ld_unit_zero (S := S5000x128) origin2, View.ld_unit_zero (S := S128x128) origin2,
    View.ld_unit_zero (S := S128) origin1]
  obtain ⟨e0, e1, e2, e3, e4, e5, e6, e7, e8, e9, e10⟩ := blockRows0 t
  funext j
  have hj0 : (j 0).val < 5000 := (j 0).isLt
  have hj1 : (j 1).val < 128 := (j 1).isLt
  have h0 : ∀ k : Fin 128, ((cfg0.win 0).blk t).view.emb (ix2 (j 0) k) = ix2 ((((cfg0.win 5).blk t).view.emb j) 0) k := fun k => by
    funext a; apply Fin.ext
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  have h1 : ∀ k : Fin 128, ((cfg0.win 1).blk t).view.emb (ix2 (j 0) k) = ix2 ((((cfg0.win 5).blk t).view.emb j) 0) k := fun k => by
    funext a; apply Fin.ext
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  have h2 : ∀ k : Fin 128, ((cfg0.win 2).blk t).view.emb (ix2 k (j 1)) = ix2 k ((((cfg0.win 5).blk t).view.emb j) 1) := fun k => by
    funext a; apply Fin.ext
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  have h3 : ∀ k : Fin 128, ((cfg0.win 3).blk t).view.emb (ix2 k (j 1)) = ix2 k ((((cfg0.win 5).blk t).view.emb j) 1) := fun k => by
    funext a; apply Fin.ext
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  have h4 : ((cfg0.win 4).blk t).view.emb (ix1 (j 1)) = ix1 ((((cfg0.win 5).blk t).view.emb j) 1) := by
    funext a; apply Fin.ext
    match a with
    | ⟨0, _⟩ => show win0_4.index t (0 : Fin 1) * 128 + 1 * (j 1).val = win0_5.index t (1 : Fin 2) * 128 + 1 * (j 1).val; omega
  refine (congrArg (k0_pay1 (F := Ideal) (iblk0 V c 0 t) (iblk0 V c 1 t) (iblk0 V c 2 t) (iblk0 V c 3 t) (iblk0 V c 4 t))
    (eq_ix2 (n0 := 5000) (n1 := 128) j)).trans ?_
  refine (Block.pay0_apply (iblk0 V c 0 t) (iblk0 V c 1 t) (iblk0 V c 2 t) (iblk0 V c 3 t) (iblk0 V c 4 t) (j 0) (j 1)).trans ?_
  show denseAt (fun k => V c main_v13 (((cfg0.win 0).blk t).view.emb (ix2 (j 0) k)))
      (fun k => V c main_arg0 (((cfg0.win 1).blk t).view.emb (ix2 (j 0) k)))
      (fun k => V c main_v14 (((cfg0.win 2).blk t).view.emb (ix2 k (j 1))))
      (fun k => V c main_v15 (((cfg0.win 3).blk t).view.emb (ix2 k (j 1))))
      (V c main_arg3 (((cfg0.win 4).blk t).view.emb (ix1 (j 1))))
    = denseAt (fun k => V c main_v13 (ix2 ((((cfg0.win 5).blk t).view.emb j) 0) k))
      (fun k => V c main_arg0 (ix2 ((((cfg0.win 5).blk t).view.emb j) 0) k))
      (fun k => V c main_v14 (ix2 k ((((cfg0.win 5).blk t).view.emb j) 1)))
      (fun k => V c main_v15 (ix2 k ((((cfg0.win 5).blk t).view.emb j) 1)))
      (V c main_arg3 (ix1 ((((cfg0.win 5).blk t).view.emb j) 1)))
  simp only [h0, h1, h2, h3, h4]
  rfl

/-- An index of the output array lies in point `t`'s block iff each coordinate lies in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v16).slice (win0_5.rect t)).set ↔ _
  rw [View.set_slice_whole, Rect.mem_set_unit]
  exact Iff.rfl

/-- Every row of the output array lies in the block of the point numbered (row / 5000): the ten blocks cover the array. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  have ht : (i 0).val / 5000 < grid0.N := by rw [hN]; omega
  obtain ⟨-, -, -, -, -, -, -, -, -, e9, e10⟩ := blockRows0 ⟨(i 0).val / 5000, ht⟩
  have e9' : win0_5.index ⟨(i 0).val / 5000, ht⟩ (0 : Fin 2) = (i 0).val / 5000 := e9
  refine ⟨⟨(i 0).val / 5000, ht⟩, flush0_5 _, ?_⟩
  rw [mem_blk0]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    omega

/-- Region 0's output array after the region: the layer of the arrays as the region finds them. -/
theorem out0 (c : Dev nD) :
    (dat0 V c).arrAt 5 cfg0.N = layer (V c main_v13) (V c main_arg0) (V c main_v14) (V c main_v15) (V c main_arg3) :=
  (dat0 V c).arrAt_eq_of_cover 5 _ (fun t _ => flushed0 V c t) cover0

/-! ## Region 1 -/

/-- The printed index maps of region 1, decided over its ten grid points: the two row-blocked inputs move with the output
    block, the matrices and the bias stay at block 0, and the output's block row is the point's number. -/
theorem blockRows1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

set_option maxHeartbeats 1600000 in
/-- What grid point `t` writes back is block `t` of the layer of the arrays as the region finds them. -/
theorem flushed1 (c : Dev nD) (t : Fin cfg1.N) :
    (dat1 V c).flushed 5 t = ((cfg1.win 5).blk t).view.read (Elt Ideal)
      (layer (V c main_v26) (V c main_v16) (V c main_v27) (V c main_v28) (V c main_arg6)) := by
  show (cfg1.win 5).cut (grid1.coords t) ((dat1 V c).after 5 t) = _
  rw [after1_5]
  unfold out1_5
  rw [View.canon_unit_zero origin2]
  simp only [View.ld_unit_zero (S := S5000x128) origin2, View.ld_unit_zero (S := S128x128) origin2,
    View.ld_unit_zero (S := S128) origin1]
  obtain ⟨e0, e1, e2, e3, e4, e5, e6, e7, e8, e9, e10⟩ := blockRows1 t
  funext j
  have hj0 : (j 0).val < 5000 := (j 0).isLt
  have hj1 : (j 1).val < 128 := (j 1).isLt
  have h0 : ∀ k : Fin 128, ((cfg1.win 0).blk t).view.emb (ix2 (j 0) k) = ix2 ((((cfg1.win 5).blk t).view.emb j) 0) k := fun k => by
    funext a; apply Fin.ext
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  have h1 : ∀ k : Fin 128, ((cfg1.win 1).blk t).view.emb (ix2 (j 0) k) = ix2 ((((cfg1.win 5).blk t).view.emb j) 0) k := fun k => by
    funext a; apply Fin.ext
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  have h2 : ∀ k : Fin 128, ((cfg1.win 2).blk t).view.emb (ix2 k (j 1)) = ix2 k ((((cfg1.win 5).blk t).view.emb j) 1) := fun k => by
    funext a; apply Fin.ext
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  have h3 : ∀ k : Fin 128, ((cfg1.win 3).blk t).view.emb (ix2 k (j 1)) = ix2 k ((((cfg1.win 5).blk t).view.emb j) 1) := fun k => by
    funext a; apply Fin.ext
    match a with
    | ⟨0, _⟩ => show win1_3.index t (0 : Fin 2) * 128 + 1 * k.val = k.val; omega
    | ⟨1, _⟩ => show win1_3.index t (1 : Fin 2) * 128 + 1 * (j 1).val = win1_5.index t (1 : Fin 2) * 128 + 1 * (j 1).val; omega
  have h4 : ((cfg1.win 4).blk t).view.emb (ix1 (j 1)) = ix1 ((((cfg1.win 5).blk t).view.emb j) 1) := by
    funext a; apply Fin.ext
    match a with
    | ⟨0, _⟩ => show win1_4.index t (0 : Fin 1) * 128 + 1 * (j 1).val = win1_5.index t (1 : Fin 2) * 128 + 1 * (j 1).val; omega
  refine (congrArg (k1_pay1 (F := Ideal) (iblk1 V c 0 t) (iblk1 V c 1 t) (iblk1 V c 2 t) (iblk1 V c 3 t) (iblk1 V c 4 t))
    (eq_ix2 (n0 := 5000) (n1 := 128) j)).trans ?_
  refine (Block.pay1_apply (iblk1 V c 0 t) (iblk1 V c 1 t) (iblk1 V c 2 t) (iblk1 V c 3 t) (iblk1 V c 4 t) (j 0) (j 1)).trans ?_
  show denseAt (fun k => V c main_v26 (((cfg1.win 0).blk t).view.emb (ix2 (j 0) k)))
      (fun k => V c main_v16 (((cfg1.win 1).blk t).view.emb (ix2 (j 0) k)))
      (fun k => V c main_v27 (((cfg1.win 2).blk t).view.emb (ix2 k (j 1))))
      (fun k => V c main_v28 (((cfg1.win 3).blk t).view.emb (ix2 k (j 1))))
      (V c main_arg6 (((cfg1.win 4).blk t).view.emb (ix1 (j 1))))
    = denseAt (fun k => V c main_v26 (ix2 ((((cfg1.win 5).blk t).view.emb j) 0) k))
      (fun k => V c main_v16 (ix2 ((((cfg1.win 5).blk t).view.emb j) 0) k))
      (fun k => V c main_v27 (ix2 k ((((cfg1.win 5).blk t).view.emb j) 1)))
      (fun k => V c main_v28 (ix2 k ((((cfg1.win 5).blk t).view.emb j) 1)))
      (V c main_arg6 (ix1 ((((cfg1.win 5).blk t).view.emb j) 1)))
  simp only [h0, h1, h2, h3, h4]
  rfl

/-- An index of the output array lies in point `t`'s block iff each coordinate lies in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v29).slice (win1_5.rect t)).set ↔ _
  rw [View.set_slice_whole, Rect.mem_set_unit]
  exact Iff.rfl

/-- Every row of the output array lies in the block of the point numbered (row / 5000): the ten blocks cover the array. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 10 := N_1
  have ht : (i 0).val / 5000 < grid1.N := by rw [hN]; omega
  obtain ⟨-, -, -, -, -, -, -, -, -, e9, e10⟩ := blockRows1 ⟨(i 0).val / 5000, ht⟩
  have e9' : win1_5.index ⟨(i 0).val / 5000, ht⟩ (0 : Fin 2) = (i 0).val / 5000 := e9
  refine ⟨⟨(i 0).val / 5000, ht⟩, flush1_5 _, ?_⟩
  rw [mem_blk1]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    omega

/-- Region 1's output array after the region: the layer of the arrays as the region finds them. -/
theorem out1 (c : Dev nD) :
    (dat1 V c).arrAt 5 cfg1.N = layer (V c main_v26) (V c main_v16) (V c main_v27) (V c main_v28) (V c main_arg6) :=
  (dat1 V c).arrAt_eq_of_cover 5 _ (fun t _ => flushed1 V c t) cover1

/-! ## Region 2 -/

/-- The printed index maps of region 2, decided over its ten grid points: the two row-blocked inputs move with the output
    block, the matrices and the bias stay at block 0, and the output's block row is the point's number. -/
theorem blockRows2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

set_option maxHeartbeats 1600000 in
/-- What grid point `t` writes back is block `t` of the layer of the arrays as the region finds them. -/
theorem flushed2 (c : Dev nD) (t : Fin cfg2.N) :
    (dat2 V c).flushed 5 t = ((cfg2.win 5).blk t).view.read (Elt Ideal)
      (layer (V c main_v39) (V c main_v29) (V c main_v40) (V c main_v41) (V c main_arg9)) := by
  show (cfg2.win 5).cut (grid2.coords t) ((dat2 V c).after 5 t) = _
  rw [after2_5]
  unfold out2_5
  rw [View.canon_unit_zero origin2]
  simp only [View.ld_unit_zero (S := S5000x128) origin2, View.ld_unit_zero (S := S128x128) origin2,
    View.ld_unit_zero (S := S128) origin1]
  obtain ⟨e0, e1, e2, e3, e4, e5, e6, e7, e8, e9, e10⟩ := blockRows2 t
  funext j
  have hj0 : (j 0).val < 5000 := (j 0).isLt
  have hj1 : (j 1).val < 128 := (j 1).isLt
  have h0 : ∀ k : Fin 128, ((cfg2.win 0).blk t).view.emb (ix2 (j 0) k) = ix2 ((((cfg2.win 5).blk t).view.emb j) 0) k := fun k => by
    funext a; apply Fin.ext
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * k.val = k.val; omega
  have h1 : ∀ k : Fin 128, ((cfg2.win 1).blk t).view.emb (ix2 (j 0) k) = ix2 ((((cfg2.win 5).blk t).view.emb j) 0) k := fun k => by
    funext a; apply Fin.ext
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 128 + 1 * k.val = k.val; omega
  have h2 : ∀ k : Fin 128, ((cfg2.win 2).blk t).view.emb (ix2 k (j 1)) = ix2 k ((((cfg2.win 5).blk t).view.emb j) 1) := fun k => by
    funext a; apply Fin.ext
    match a with
    | ⟨0, _⟩ => show win2_2.index t (0 : Fin 2) * 128 + 1 * k.val = k.val; omega
    | ⟨1, _⟩ => show win2_2.index t (1 : Fin 2) * 128 + 1 * (j 1).val = win2_5.index t (1 : Fin 2) * 128 + 1 * (j 1).val; omega
  have h3 : ∀ k : Fin 128, ((cfg2.win 3).blk t).view.emb (ix2 k (j 1)) = ix2 k ((((cfg2.win 5).blk t).view.emb j) 1) := fun k => by
    funext a; apply Fin.ext
    match a with
    | ⟨0, _⟩ => show win2_3.index t (0 : Fin 2) * 128 + 1 * k.val = k.val; omega
    | ⟨1, _⟩ => show win2_3.index t (1 : Fin 2) * 128 + 1 * (j 1).val = win2_5.index t (1 : Fin 2) * 128 + 1 * (j 1).val; omega
  have h4 : ((cfg2.win 4).blk t).view.emb (ix1 (j 1)) = ix1 ((((cfg2.win 5).blk t).view.emb j) 1) := by
    funext a; apply Fin.ext
    match a with
    | ⟨0, _⟩ => show win2_4.index t (0 : Fin 1) * 128 + 1 * (j 1).val = win2_5.index t (1 : Fin 2) * 128 + 1 * (j 1).val; omega
  refine (congrArg (k2_pay1 (F := Ideal) (iblk2 V c 0 t) (iblk2 V c 1 t) (iblk2 V c 2 t) (iblk2 V c 3 t) (iblk2 V c 4 t))
    (eq_ix2 (n0 := 5000) (n1 := 128) j)).trans ?_
  refine (Block.pay2_apply (iblk2 V c 0 t) (iblk2 V c 1 t) (iblk2 V c 2 t) (iblk2 V c 3 t) (iblk2 V c 4 t) (j 0) (j 1)).trans ?_
  show denseAt (fun k => V c main_v39 (((cfg2.win 0).blk t).view.emb (ix2 (j 0) k)))
      (fun k => V c main_v29 (((cfg2.win 1).blk t).view.emb (ix2 (j 0) k)))
      (fun k => V c main_v40 (((cfg2.win 2).blk t).view.emb (ix2 k (j 1))))
      (fun k => V c main_v41 (((cfg2.win 3).blk t).view.emb (ix2 k (j 1))))
      (V c main_arg9 (((cfg2.win 4).blk t).view.emb (ix1 (j 1))))
    = denseAt (fun k => V c main_v39 (ix2 ((((cfg2.win 5).blk t).view.emb j) 0) k))
      (fun k => V c main_v29 (ix2 ((((cfg2.win 5).blk t).view.emb j) 0) k))
      (fun k => V c main_v40 (ix2 k ((((cfg2.win 5).blk t).view.emb j) 1)))
      (fun k => V c main_v41 (ix2 k ((((cfg2.win 5).blk t).view.emb j) 1)))
      (V c main_arg9 (ix1 ((((cfg2.win 5).blk t).view.emb j) 1)))
  simp only [h0, h1, h2, h3, h4]
  rfl

/-- An index of the output array lies in point `t`'s block iff each coordinate lies in the block's range on its axis. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v42).slice (win2_5.rect t)).set ↔ _
  rw [View.set_slice_whole, Rect.mem_set_unit]
  exact Iff.rfl

/-- Every row of the output array lies in the block of the point numbered (row / 5000): the ten blocks cover the array. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 10 := N_2
  have ht : (i 0).val / 5000 < grid2.N := by rw [hN]; omega
  obtain ⟨-, -, -, -, -, -, -, -, -, e9, e10⟩ := blockRows2 ⟨(i 0).val / 5000, ht⟩
  have e9' : win2_5.index ⟨(i 0).val / 5000, ht⟩ (0 : Fin 2) = (i 0).val / 5000 := e9
  refine ⟨⟨(i 0).val / 5000, ht⟩, flush2_5 _, ?_⟩
  rw [mem_blk2]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    omega
  | ⟨1, _⟩ =>
    show win2_5.index ⟨(i 0).val / 5000, ht⟩ (1 : Fin 2) * 128 ≤ (i 1).val ∧ (i 1).val < win2_5.index ⟨(i 0).val / 5000, ht⟩ (1 : Fin 2) * 128 + 128
    omega

/-- Region 2's output array after the region: the layer of the arrays as the region finds them. -/
theorem out2 (c : Dev nD) :
    (dat2 V c).arrAt 5 cfg2.N = layer (V c main_v39) (V c main_v29) (V c main_v40) (V c main_v41) (V c main_arg9) :=
  (dat2 V c).arrAt_eq_of_cover 5 _ (fun t _ => flushed2 V c t) cover2

end Cert.KernelIdeal.Region

end
-- ==== Proof.RefLayer.lean ====
/-
  The reference's layers, read entry by entry.

  The reference's first layer is, as a function of ANY node-feature array `h`, the index array, a weight matrix, a
  bias and a second weight matrix:  relu ((agg · Wrᵀ + bias) + h · Woᵀ), with `agg` the scatter-added gathered rows
  of `h`. Read at (r, e) — a product of matrices as the sum over the contracted axis, the bias laid as a row and
  repeated over the rows — it is the layer's entry with the bias added first, which is the layer's entry.
  The second and third layers are the same function applied to the previous layer's result.
-/
import proofs.«142759_j84980222918908_1_alg».proof.Proof.Gen.ReferenceIdeal.Read
import proofs.«142759_j84980222918908_1_alg».proof.Proof.LayerSpec

noncomputable section

open scoped BigOperators

namespace Cert.ReferenceIdeal.LayerRead

open Cert.ReferenceIdeal Cert.ReferenceIdeal.Read Idealize.ShloMosaic Idealize.ShloMosaic.ValueIdx Cert.Layer

/-- The reference's layer is the specification's layer of the aggregated features, the features, the two transposed
    matrices and the bias. -/
theorem conv_eq_layer (h : (⟨S50000x128, .f32⟩ : BufTy).Contents (Elt Ideal)) (ei : (⟨S2x600000, .i32⟩ : BufTy).Contents (Elt Ideal))
    (wr : (⟨S128x128, .f32⟩ : BufTy).Contents (Elt Ideal)) (b : (⟨S128, .f32⟩ : BufTy).Contents (Elt Ideal))
    (wo : (⟨S128x128, .f32⟩ : BufTy).Contents (Elt Ideal)) :
    val_main_v22 (F := Ideal) h ei wr b wo
      = layer (val_main_v13 (F := Ideal) h ei) h (val_main_v14 (F := Ideal) wr) (val_main_v19 (F := Ideal) wo) b := by
  funext i
  obtain ⟨r, e, rfl⟩ : ∃ (r : Fin 50000) (e : Fin 128), i = ix2 r e := ⟨i 0, i 1, eq_ix2 i⟩
  rw [layer_apply, ← denseAt_bias_first,
    val_main_v22_apply, val_main_v21_apply, val_main_v18_apply, val_main_v15_apply, val_main_v20_apply,
    val_main_v17_apply, val_main_v16_apply, val_main_call0_v0_apply, val_main_call0_cst_apply]
  have el : ∀ k : Fin 128, lidx_main_v15 (ix2 r e) k = ix2 r k := fun k =>
    funext fun a => Fin.ext (by match a with | ⟨0, _⟩ => rfl | ⟨1, _⟩ => rfl)
  have er : ∀ k : Fin 128, ridx_main_v15 (ix2 r e) k = ix2 k e := fun k =>
    funext fun a => Fin.ext (by match a with | ⟨0, _⟩ => rfl | ⟨1, _⟩ => rfl)
  have el' : ∀ k : Fin 128, lidx_main_v20 (ix2 r e) k = ix2 r k := fun k =>
    funext fun a => Fin.ext (by match a with | ⟨0, _⟩ => rfl | ⟨1, _⟩ => rfl)
  have er' : ∀ k : Fin 128, ridx_main_v20 (ix2 r e) k = ix2 k e := fun k =>
    funext fun a => Fin.ext (by match a with | ⟨0, _⟩ => rfl | ⟨1, _⟩ => rfl)
  have eb : idx_main_v16 (idx_main_v17 (ix2 r e)) = ix1 e :=
    funext fun a => Fin.ext (by match a with | ⟨0, _⟩ => rfl)
  simp only [el, er, el', er', eb]
  rfl

/-- The second layer is the first layer's function of the first layer's result. -/
theorem conv2_eq (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v41 (F := Ideal) x0 x1 x2 x3 x4 x5 x6 x7
      = val_main_v22 (F := Ideal) (val_main_v22 (F := Ideal) x0 x1 x2 x3 x4) x1 x5 x6 x7 := rfl

/-- The third layer is the first layer's function of the second layer's result. -/
theorem conv3_eq (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 x8 : (⟨S128x128, .f32⟩ : BufTy).Contents (Elt Ideal)) (x9 : (⟨S128, .f32⟩ : BufTy).Contents (Elt Ideal))
    (x10 : (⟨S128x128, .f32⟩ : BufTy).Contents (Elt Ideal)) :
    val_main_v60 (F := Ideal) x0 x1 x2 x3 x4 x5 x6 x7 x8 x9 x10
      = val_main_v22 (F := Ideal) (val_main_v41 (F := Ideal) x0 x1 x2 x3 x4 x5 x6 x7) x1 x8 x9 x10 := rfl

end Cert.ReferenceIdeal.LayerRead

end
-- ==== Proof.LibSkipWrites.lean ====
/-
  Reading a buffer through host operations that do not write it: for a literal list of operations none of which
  writes the buffer `b`, the contents after the list are the contents before it.
-/
import Idealize.ShloMosaic.Lib.StableHlo.Run

open Idealize.ShloMosaic

/-- Closes `StableHlo.after ops V b = V b` for a literal list `ops` (given by the names to unfold) none of whose
    operations writes `b`: each operation writes one buffer, and that buffer is another one. -/
macro "skip_writes" "[" ls:Lean.Parser.Tactic.simpLemma,* "]" : tactic => `(tactic|
  (refine StableHlo.after_of_forall_not_mem _ _ (List.forall_iff_forall_mem.mp ?_)
   simp only [$ls,*, List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))
-- ==== Proof.KernelFold.lean ====
/-
  The idealized kernel's result, read off the fold through @main's seven segments.

  The host stretch before each region computes, from the previous layer's array `h` and the index array, the
  scatter-added gathered rows of `h` (the same operations, word for word, as the reference's aggregation) and the
  two transposed weight matrices; the region then leaves the layer of these in its output array (whatever else the
  buffers hold), and the last stretch reshapes the third layer's array. The source and target index vectors are
  computed once, in the first stretch, and every later stretch reads them back unchanged, as it reads the argument
  arrays: no operation and no region writes them. So the result buffer holds the reference's own term of the arguments.
-/
import proofs.«142759_j84980222918908_1_alg».proof.Proof.Gen.KernelIdeal.Frame
import proofs.«142759_j84980222918908_1_alg».proof.Proof.Region
import proofs.«142759_j84980222918908_1_alg».proof.Proof.RefLayer
import proofs.«142759_j84980222918908_1_alg».proof.Proof.LibSkipWrites

set_option maxRecDepth 16384

noncomputable section

namespace Cert.KernelIdeal.Fold

open Cert.KernelIdeal Cert.KernelIdeal.Gen Cert.Layer
open Idealize.ShloMosaic Idealize.ShloMosaic.TcCoe Idealize.SL.Sem Idealize.ShloMosaic.StableHlo
open Cert.ReferenceIdeal.Read Cert.ReferenceIdeal.LayerRead

/-! ## Each host stretch, from any contents `Wv` of the buffers -/

section Stretches
variable (Wv : Valuation τ sig (Elt Ideal))

/-- The first stretch's source-index vector, target-index vector, aggregated features and transposed matrices. -/
theorem s0_src : StableHlo.after (hostOps0 (F := Ideal)) Wv (Proc.devRef .tc main_v1) = val_main_v1 (F := Ideal) (Wv (Proc.devRef .tc main_arg1)) := by
  after_results; rfl
theorem s0_dst : StableHlo.after (hostOps0 (F := Ideal)) Wv (Proc.devRef .tc main_v3) = val_main_v3 (F := Ideal) (Wv (Proc.devRef .tc main_arg1)) := by
  after_results; rfl
theorem s0_msg : StableHlo.after (hostOps0 (F := Ideal)) Wv (Proc.devRef .tc main_v13)
    = val_main_v13 (F := Ideal) (Wv (Proc.devRef .tc main_arg0)) (Wv (Proc.devRef .tc main_arg1)) := by
  after_results; rfl
theorem s0_wr : StableHlo.after (hostOps0 (F := Ideal)) Wv (Proc.devRef .tc main_v14) = val_main_v14 (F := Ideal) (Wv (Proc.devRef .tc main_arg2)) := by
  after_results; rfl
theorem s0_wo : StableHlo.after (hostOps0 (F := Ideal)) Wv (Proc.devRef .tc main_v15) = val_main_v19 (F := Ideal) (Wv (Proc.devRef .tc main_arg4)) := by
  after_results; rfl

/-- The second stretch: the aggregation of the first layer's array, over index vectors already in their buffers. -/
theorem s1_msg (ei : (⟨Cert.ReferenceIdeal.S2x600000, .i32⟩ : BufTy).Contents (Elt Ideal))
    (h1 : Wv (Proc.devRef .tc main_v1) = val_main_v1 (F := Ideal) ei) (h3 : Wv (Proc.devRef .tc main_v3) = val_main_v3 (F := Ideal) ei) :
    StableHlo.after (hostOps1 (F := Ideal)) Wv (Proc.devRef .tc main_v26) = val_main_v13 (F := Ideal) (Wv (Proc.devRef .tc main_v16)) ei := by
  after_results; rw [h1, h3]; rfl
theorem s1_wr : StableHlo.after (hostOps1 (F := Ideal)) Wv (Proc.devRef .tc main_v27) = val_main_v14 (F := Ideal) (Wv (Proc.devRef .tc main_arg5)) := by
  after_results; rfl
theorem s1_wo : StableHlo.after (hostOps1 (F := Ideal)) Wv (Proc.devRef .tc main_v28) = val_main_v19 (F := Ideal) (Wv (Proc.devRef .tc main_arg7)) := by
  after_results; rfl

/-- The third stretch: the same of the second layer's array. -/
theorem s2_msg (ei : (⟨Cert.ReferenceIdeal.S2x600000, .i32⟩ : BufTy).Contents (Elt Ideal))
    (h1 : Wv (Proc.devRef .tc main_v1) = val_main_v1 (F := Ideal) ei) (h3 : Wv (Proc.devRef .tc main_v3) = val_main_v3 (F := Ideal) ei) :
    StableHlo.after (hostOps2 (F := Ideal)) Wv (Proc.devRef .tc main_v39) = val_main_v13 (F := Ideal) (Wv (Proc.devRef .tc main_v29)) ei := by
  after_results; rw [h1, h3]; rfl
theorem s2_wr : StableHlo.after (hostOps2 (F := Ideal)) Wv (Proc.devRef .tc main_v40) = val_main_v14 (F := Ideal) (Wv (Proc.devRef .tc main_arg8)) := by
  after_results; rfl
theorem s2_wo : StableHlo.after (hostOps2 (F := Ideal)) Wv (Proc.devRef .tc main_v41) = val_main_v19 (F := Ideal) (Wv (Proc.devRef .tc main_arg10)) := by
  after_results; rfl

/-- The last stretch: the third layer's array with a leading unit axis. -/
theorem s3_out : StableHlo.after (hostOps3 (F := Ideal)) Wv (Proc.devRef .tc main_v43)
    = shapeCast S1x50000x128 (Wv (Proc.devRef .tc main_v42)) shapeCasts_S50000x128_S1x50000x128 := by
  after_results; rfl

end Stretches

/-! ## Buffers carried unchanged from one boundary to the next -/

variable (m : (ℓ : Loc nD τ sig) → Buf (Elt Ideal) ℓ) (ρ : Dev nD → PrngReg) (c : Dev nD)

theorem k1_arg0 : W1 m ρ c (Proc.devRef .tc main_arg0) = (m ((c : Thread nD τ).loc main_arg0)) := by
  show StableHlo.after (hostOps0 (F := Ideal)) (W0 m ρ c) (Proc.devRef .tc main_arg0) = W0 m ρ c (Proc.devRef .tc main_arg0)
  skip_writes [hostOps0]
theorem k1_arg3 : W1 m ρ c (Proc.devRef .tc main_arg3) = (m ((c : Thread nD τ).loc main_arg3)) := by
  show StableHlo.after (hostOps0 (F := Ideal)) (W0 m ρ c) (Proc.devRef .tc main_arg3) = W0 m ρ c (Proc.devRef .tc main_arg3)
  skip_writes [hostOps0]
theorem k1_arg5 : W1 m ρ c (Proc.devRef .tc main_arg5) = (m ((c : Thread nD τ).loc main_arg5)) := by
  show StableHlo.after (hostOps0 (F := Ideal)) (W0 m ρ c) (Proc.devRef .tc main_arg5) = W0 m ρ c (Proc.devRef .tc main_arg5)
  skip_writes [hostOps0]
theorem k1_arg6 : W1 m ρ c (Proc.devRef .tc main_arg6) = (m ((c : Thread nD τ).loc main_arg6)) := by
  show StableHlo.after (hostOps0 (F := Ideal)) (W0 m ρ c) (Proc.devRef .tc main_arg6) = W0 m ρ c (Proc.devRef .tc main_arg6)
  skip_writes [hostOps0]
theorem k1_arg7 : W1 m ρ c (Proc.devRef .tc main_arg7) = (m ((c : Thread nD τ).loc main_arg7)) := by
  show StableHlo.after (hostOps0 (F := Ideal)) (W0 m ρ c) (Proc.devRef .tc main_arg7) = W0 m ρ c (Proc.devRef .tc main_arg7)
  skip_writes [hostOps0]
theorem k1_arg8 : W1 m ρ c (Proc.devRef .tc main_arg8) = (m ((c : Thread nD τ).loc main_arg8)) := by
  show StableHlo.after (hostOps0 (F := Ideal)) (W0 m ρ c) (Proc.devRef .tc main_arg8) = W0 m ρ c (Proc.devRef .tc main_arg8)
  skip_writes [hostOps0]
theorem k1_arg9 : W1 m ρ c (Proc.devRef .tc main_arg9) = (m ((c : Thread nD τ).loc main_arg9)) := by
  show StableHlo.after (hostOps0 (F := Ideal)) (W0 m ρ c) (Proc.devRef .tc main_arg9) = W0 m ρ c (Proc.devRef .tc main_arg9)
  skip_writes [hostOps0]
theorem k1_arg10 : W1 m ρ c (Proc.devRef .tc main_arg10) = (m ((c : Thread nD τ).loc main_arg10)) := by
  show StableHlo.after (hostOps0 (F := Ideal)) (W0 m ρ c) (Proc.devRef .tc main_arg10) = W0 m ρ c (Proc.devRef .tc main_arg10)
  skip_writes [hostOps0]
theorem k2_v1 : W2 m ρ c (Proc.devRef .tc main_v1) = W1 m ρ c (Proc.devRef .tc main_v1) := W2_of_ne m ρ c main_v1 (by decide)
theorem k2_v3 : W2 m ρ c (Proc.devRef .tc main_v3) = W1 m ρ c (Proc.devRef .tc main_v3) := W2_of_ne m ρ c main_v3 (by decide)
theorem k2_arg5 : W2 m ρ c (Proc.devRef .tc main_arg5) = W1 m ρ c (Proc.devRef .tc main_arg5) := W2_of_ne m ρ c main_arg5 (by decide)
theorem k2_arg6 : W2 m ρ c (Proc.devRef .tc main_arg6) = W1 m ρ c (Proc.devRef .tc main_arg6) := W2_of_ne m ρ c main_arg6 (by decide)
theorem k2_arg7 : W2 m ρ c (Proc.devRef .tc main_arg7) = W1 m ρ c (Proc.devRef .tc main_arg7) := W2_of_ne m ρ c main_arg7 (by decide)
theorem k2_arg8 : W2 m ρ c (Proc.devRef .tc main_arg8) = W1 m ρ c (Proc.devRef .tc main_arg8) := W2_of_ne m ρ c main_arg8 (by decide)
theorem k2_arg9 : W2 m ρ c (Proc.devRef .tc main_arg9) = W1 m ρ c (Proc.devRef .tc main_arg9) := W2_of_ne m ρ c main_arg9 (by decide)
theorem k2_arg10 : W2 m ρ c (Proc.devRef .tc main_arg10) = W1 m ρ c (Proc.devRef .tc main_arg10) := W2_of_ne m ρ c main_arg10 (by decide)
theorem k3_v1 : W3 m ρ c (Proc.devRef .tc main_v1) = W2 m ρ c (Proc.devRef .tc main_v1) := by
  show StableHlo.after (hostOps1 (F := Ideal)) (W2 m ρ c) (Proc.devRef .tc main_v1) = W2 m ρ c (Proc.devRef .tc main_v1)
  skip_writes [hostOps1]
theorem k3_v3 : W3 m ρ c (Proc.devRef .tc main_v3) = W2 m ρ c (Proc.devRef .tc main_v3) := by
  show StableHlo.after (hostOps1 (F := Ideal)) (W2 m ρ c) (Proc.devRef .tc main_v3) = W2 m ρ c (Proc.devRef .tc main_v3)
  skip_writes [hostOps1]
theorem k3_v16 : W3 m ρ c (Proc.devRef .tc main_v16) = W2 m ρ c (Proc.devRef .tc main_v16) := by
  show StableHlo.after (hostOps1 (F := Ideal)) (W2 m ρ c) (Proc.devRef .tc main_v16) = W2 m ρ c (Proc.devRef .tc main_v16)
  skip_writes [hostOps1]
theorem k3_arg6 : W3 m ρ c (Proc.devRef .tc main_arg6) = W2 m ρ c (Proc.devRef .tc main_arg6) := by
  show StableHlo.after (hostOps1 (F := Ideal)) (W2 m ρ c) (Proc.devRef .tc main_arg6) = W2 m ρ c (Proc.devRef .tc main_arg6)
  skip_writes [hostOps1]
theorem k3_arg8 : W3 m ρ c (Proc.devRef .tc main_arg8) = W2 m ρ c (Proc.devRef .tc main_arg8) := by
  show StableHlo.after (hostOps1 (F := Ideal)) (W2 m ρ c) (Proc.devRef .tc main_arg8) = W2 m ρ c (Proc.devRef .tc main_arg8)
  skip_writes [hostOps1]
theorem k3_arg9 : W3 m ρ c (Proc.devRef .tc main_arg9) = W2 m ρ c (Proc.devRef .tc main_arg9) := by
  show StableHlo.after (hostOps1 (F := Ideal)) (W2 m ρ c) (Proc.devRef .tc main_arg9) = W2 m ρ c (Proc.devRef .tc main_arg9)
  skip_writes [hostOps1]
theorem k3_arg10 : W3 m ρ c (Proc.devRef .tc main_arg10) = W2 m ρ c (Proc.devRef .tc main_arg10) := by
  show StableHlo.after (hostOps1 (F := Ideal)) (W2 m ρ c) (Proc.devRef .tc main_arg10) = W2 m ρ c (Proc.devRef .tc main_arg10)
  skip_writes [hostOps1]
theorem k4_v1 : W4 m ρ c (Proc.devRef .tc main_v1) = W3 m ρ c (Proc.devRef .tc main_v1) := W4_of_ne m ρ c main_v1 (by decide)
theorem k4_v3 : W4 m ρ c (Proc.devRef .tc main_v3) = W3 m ρ c (Proc.devRef .tc main_v3) := W4_of_ne m ρ c main_v3 (by decide)
theorem k4_arg8 : W4 m ρ c (Proc.devRef .tc main_arg8) = W3 m ρ c (Proc.devRef .tc main_arg8) := W4_of_ne m ρ c main_arg8 (by decide)
theorem k4_arg9 : W4 m ρ c (Proc.devRef .tc main_arg9) = W3 m ρ c (Proc.devRef .tc main_arg9) := W4_of_ne m ρ c main_arg9 (by decide)
theorem k4_arg10 : W4 m ρ c (Proc.devRef .tc main_arg10) = W3 m ρ c (Proc.devRef .tc main_arg10) := W4_of_ne m ρ c main_arg10 (by decide)
theorem k5_v29 : W5 m ρ c (Proc.devRef .tc main_v29) = W4 m ρ c (Proc.devRef .tc main_v29) := by
  show StableHlo.after (hostOps2 (F := Ideal)) (W4 m ρ c) (Proc.devRef .tc main_v29) = W4 m ρ c (Proc.devRef .tc main_v29)
  skip_writes [hostOps2]
theorem k5_arg9 : W5 m ρ c (Proc.devRef .tc main_arg9) = W4 m ρ c (Proc.devRef .tc main_arg9) := by
  show StableHlo.after (hostOps2 (F := Ideal)) (W4 m ρ c) (Proc.devRef .tc main_arg9) = W4 m ρ c (Proc.devRef .tc main_arg9)
  skip_writes [hostOps2]

/-! ## The index vectors at the boundaries that read them -/

theorem src2 : W2 m ρ c (Proc.devRef .tc main_v1) = val_main_v1 (F := Ideal) (m ((c : Thread nD τ).loc main_arg1)) := (k2_v1 m ρ c).trans (s0_src (W0 m ρ c))
theorem dst2 : W2 m ρ c (Proc.devRef .tc main_v3) = val_main_v3 (F := Ideal) (m ((c : Thread nD τ).loc main_arg1)) := (k2_v3 m ρ c).trans (s0_dst (W0 m ρ c))
theorem src4 : W4 m ρ c (Proc.devRef .tc main_v1) = val_main_v1 (F := Ideal) (m ((c : Thread nD τ).loc main_arg1)) :=
  (k4_v1 m ρ c).trans ((k3_v1 m ρ c).trans (src2 m ρ c))
theorem dst4 : W4 m ρ c (Proc.devRef .tc main_v3) = val_main_v3 (F := Ideal) (m ((c : Thread nD τ).loc main_arg1)) :=
  (k4_v3 m ρ c).trans ((k3_v3 m ρ c).trans (dst2 m ρ c))

/-! ## The three layers -/

/-- After the first region its output array is the reference's first layer of the arguments. -/
theorem layer1 : W2 m ρ c (Proc.devRef .tc main_v16) = (val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  refine (W2_arr m ρ c 5).trans ((Region.out0 (V1 m ρ) c).trans ?_)
  rw [conv_eq_layer]
  show layer (StableHlo.after (hostOps0 (F := Ideal)) (W0 m ρ c) (Proc.devRef .tc main_v13)) (W1 m ρ c (Proc.devRef .tc main_arg0))
      (StableHlo.after (hostOps0 (F := Ideal)) (W0 m ρ c) (Proc.devRef .tc main_v14)) (StableHlo.after (hostOps0 (F := Ideal)) (W0 m ρ c) (Proc.devRef .tc main_v15))
      (W1 m ρ c (Proc.devRef .tc main_arg3)) = _
  rw [s0_msg, s0_wr, s0_wo, k1_arg0, k1_arg3]

/-- After the second region its output array is the reference's layer of the first layer's array. -/
theorem layer2 : W4 m ρ c (Proc.devRef .tc main_v29) = (val_main_v22 (F := Ideal) (val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) := by
  refine (W4_arr m ρ c 5).trans ((Region.out1 (V3 m ρ) c).trans ?_)
  rw [conv_eq_layer]
  show layer (StableHlo.after (hostOps1 (F := Ideal)) (W2 m ρ c) (Proc.devRef .tc main_v26)) (W3 m ρ c (Proc.devRef .tc main_v16))
      (StableHlo.after (hostOps1 (F := Ideal)) (W2 m ρ c) (Proc.devRef .tc main_v27)) (StableHlo.after (hostOps1 (F := Ideal)) (W2 m ρ c) (Proc.devRef .tc main_v28))
      (W3 m ρ c (Proc.devRef .tc main_arg6)) = _
  rw [s1_msg (W2 m ρ c) _ (src2 m ρ c) (dst2 m ρ c), s1_wr, s1_wo, k3_v16, k3_arg6, layer1,
    k2_arg5, k2_arg6, k2_arg7, k1_arg5, k1_arg6, k1_arg7]

/-- After the third region its output array is the reference's layer of the second layer's array. -/
theorem layer3 : W6 m ρ c (Proc.devRef .tc main_v42) = (val_main_v22 (F := Ideal) (val_main_v22 (F := Ideal) (val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10))) := by
  refine (W6_arr m ρ c 5).trans ((Region.out2 (V5 m ρ) c).trans ?_)
  rw [conv_eq_layer]
  show layer (StableHlo.after (hostOps2 (F := Ideal)) (W4 m ρ c) (Proc.devRef .tc main_v39)) (W5 m ρ c (Proc.devRef .tc main_v29))
      (StableHlo.after (hostOps2 (F := Ideal)) (W4 m ρ c) (Proc.devRef .tc main_v40)) (StableHlo.after (hostOps2 (F := Ideal)) (W4 m ρ c) (Proc.devRef .tc main_v41))
      (W5 m ρ c (Proc.devRef .tc main_arg9)) = _
  rw [s2_msg (W4 m ρ c) _ (src4 m ρ c) (dst4 m ρ c), s2_wr, s2_wo, k5_v29, k5_arg9, layer2,
    k4_arg8, k4_arg9, k4_arg10, k3_arg8, k3_arg9, k3_arg10, k2_arg8, k2_arg9, k2_arg10, k1_arg8, k1_arg9, k1_arg10]

/-- The result buffer at the end of @main: the reference's result term of the argument arrays. -/
theorem result_eq : W7 m ρ c (Proc.devRef .tc main_v43)
    = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (s3_out (W6 m ρ c)).trans ?_
  rw [layer3]
  unfold val_main_v61
  rw [conv3_eq, conv2_eq]

end Cert.KernelIdeal.Fold

end
-- ==== Proof.lean ====
/-
  The three layers of a GraphConv network: the kernel against its jnp reference.

  Per layer both programs aggregate neighbour features with the same host operations (negative indices wrapped, rows
  gathered, rows scatter-added from zeros) and then compute  relu (agg · Wrᵀ + h · Woᵀ + b).  The kernel computes the
  dense part in a Pallas region over ten blocks of 5000 rows, in bf16 operands accumulated in f32, as
  (agg · Wrᵀ + h · Woᵀ) + b; the reference as (agg · Wrᵀ + b) + h · Woᵀ over whole arrays. On the extended reals a
  change of float format is the identity, a matrix product is the plain sum over the contracted axis whatever the
  tiling, and addition is commutative and associative with no finiteness needed: so the two programs compute the same
  function of the arguments, layer after layer, and the precondition is never opened.

  The frames of the two kernel programs are the generated ones; the reference's frame is its generated run. The
  idealization rewrote no operation, so `preserves` has nothing to state.
-/
import proofs.«142759_j84980222918908_1_alg».proof.Defs
import proofs.«142759_j84980222918908_1_alg».proof.Proof.Gen.Kernel
import proofs.«142759_j84980222918908_1_alg».proof.Proof.Gen.Kernel.Skeleton
import proofs.«142759_j84980222918908_1_alg».proof.Proof.Gen.Kernel.Launch
import proofs.«142759_j84980222918908_1_alg».proof.Proof.Gen.Kernel.Points
import proofs.«142759_j84980222918908_1_alg».proof.Proof.Gen.Kernel.Frame
import proofs.«142759_j84980222918908_1_alg».proof.Proof.Gen.KernelIdeal
import proofs.«142759_j84980222918908_1_alg».proof.Proof.Gen.KernelIdeal.Skeleton
import proofs.«142759_j84980222918908_1_alg».proof.Proof.Gen.KernelIdeal.Launch
import proofs.«142759_j84980222918908_1_alg».proof.Proof.Gen.KernelIdeal.Points
import proofs.«142759_j84980222918908_1_alg».proof.Proof.Gen.KernelIdeal.Frame
import proofs.«142759_j84980222918908_1_alg».proof.Proof.Gen.ReferenceIdeal
import proofs.«142759_j84980222918908_1_alg».proof.Proof.Gen.ReferenceIdeal.Run
import proofs.«142759_j84980222918908_1_alg».proof.Proof.Gen.ReferenceIdeal.Read
import proofs.«142759_j84980222918908_1_alg».proof.Proof.Gen.Pre_finite_inputs
import proofs.«142759_j84980222918908_1_alg».proof.Proof.KernelRun
import proofs.«142759_j84980222918908_1_alg».proof.Proof.KernelFold
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result at the reference's term of the argument arrays: the kernel's by reading the fold
    through its seven segments, the reference's by its generated run; the arguments agree. -/
theorem algebraic : Cert.algebraic_KernelIdeal_ReferenceIdeal := by
  intro m ρ m' ρ' _ hagree
  refine ⟨fun c => Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Whole.run_all m ρ)
    exact ⟨(Cert.KernelIdeal.Whole.result_at m ρ r h c).trans (Cert.KernelIdeal.Fold.result_eq m ρ c),
      (h c _ (Cert.KernelIdeal.Gen.mem_uc Cert.KernelIdeal.main_arg0 (by decide))).trans (Cert.KernelIdeal.Gen.W7_main_arg0 m ρ c),
      (h c _ (Cert.KernelIdeal.Gen.mem_uc Cert.KernelIdeal.main_arg1 (by decide))).trans (Cert.KernelIdeal.Gen.W7_main_arg1 m ρ c),
      (h c _ (Cert.KernelIdeal.Gen.mem_uc Cert.KernelIdeal.main_arg2 (by decide))).trans (Cert.KernelIdeal.Gen.W7_main_arg2 m ρ c),
      (h c _ (Cert.KernelIdeal.Gen.mem_uc Cert.KernelIdeal.main_arg3 (by decide))).trans (Cert.KernelIdeal.Gen.W7_main_arg3 m ρ c),
      (h c _ (Cert.KernelIdeal.Gen.mem_uc Cert.KernelIdeal.main_arg4 (by decide))).trans (Cert.KernelIdeal.Gen.W7_main_arg4 m ρ c),
      (h c _ (Cert.KernelIdeal.Gen.mem_uc Cert.KernelIdeal.main_arg5 (by decide))).trans (Cert.KernelIdeal.Gen.W7_main_arg5 m ρ c),
      (h c _ (Cert.KernelIdeal.Gen.mem_uc Cert.KernelIdeal.main_arg6 (by decide))).trans (Cert.KernelIdeal.Gen.W7_main_arg6 m ρ c),
      (h c _ (Cert.KernelIdeal.Gen.mem_uc Cert.KernelIdeal.main_arg7 (by decide))).trans (Cert.KernelIdeal.Gen.W7_main_arg7 m ρ c),
      (h c _ (Cert.KernelIdeal.Gen.mem_uc Cert.KernelIdeal.main_arg8 (by decide))).trans (Cert.KernelIdeal.Gen.W7_main_arg8 m ρ c),
      (h c _ (Cert.KernelIdeal.Gen.mem_uc Cert.KernelIdeal.main_arg9 (by decide))).trans (Cert.KernelIdeal.Gen.W7_main_arg9 m ρ c),
      (h c _ (Cert.KernelIdeal.Gen.mem_uc Cert.KernelIdeal.main_arg10 (by decide))).trans (Cert.KernelIdeal.Gen.W7_main_arg10 m ρ c)⟩
  · refine (θ_run Cert.ReferenceIdeal.defs _ _).mono (fun _ h c => ⟨(h c).1.trans ?_, (h c).2⟩)
      (Cert.ReferenceIdeal.Value.run (F := Ideal) m' ρ')
    obtain ⟨g0, g1, g2, g3, g4, g5, g6, g7, g8, g9, g10⟩ := hagree c
    rw [Cert.ReferenceIdeal.Read.val_main_v61_eq, g0, g1, g2, g3, g4, g5, g6, g7, g8, g9, g10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
